-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_
  bcast_S_S16384 : S_.BroadcastsInDim S16384 (![] : Fin 0 → Fin S16384.rank)
  reducesTo_S16384_S_d0 : S16384.ReducesTo [0] S_
  bcast_S_S16384x4096 : S_.BroadcastsInDim S16384x4096 (![] : Fin 0 → Fin S16384x4096.rank)
  reducesTo_S16384x4096_S_d0_1 : S16384x4096.ReducesTo [0, 1] S_

variable [Facts]

def fn_part1 {F : FTy → Type} [FloatOps F] (main_arg4 : FVec F S16384 .f32) (main_arg5 : FVec F S16384x4096 .f32) (main_arg6 : FVec F S4096 .f32) (main_v13 : IVec S_ 1) (main_v16 : IVec S4096x16384 1) : IVec S_ 1 :=
  let main_c_5 : IVec S_ 1 := constantI S_ 1 1#1
  let main_v17 : IVec S_ 1 := (fun x v => Host.reduce IntOp.andi x v reducesTo_S4096x16384_S_d0_1 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_v24 : FVec F S16384x4096 .f32 := Host.absf main_arg5
  let main_cst_8 : FVec F S_ .f32 := constant S_ .f32 0x7F800000#32
  let main_v25 : FVec F S16384x4096 .f32 := broadcastInDim S16384x4096 ![] bcast_S_S16384x4096 main_cst_8
  let main_v26 : IVec S16384x4096 1 := cmpf .olt main_v24 main_v25
  let main_c_9 : IVec S_ 1 := constantI S_ 1 1#1
  let main_v27 : IVec S_ 1 := (fun x v => Host.reduce IntOp.andi x v reducesTo_S16384x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096 .f32) (main_arg2 : FVec F S4096 .f32) (main_arg3 : FVec F S4096x16384 .f32) (main_arg4 : FVec F S16384 .f32) (main_arg5 : FVec F S16384x4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x16384 .f32 := Host.absf main_arg3
  let main_cst_4 : FVec F S_ .f32 := constant S_ .f32 0x7F800000#32
  let main_v15 : FVec F S4096x16384 .f32 := broadcastInDim S4096x16384 ![] bcast_S_S4096x16384 main_cst_4
  let main_v16 : IVec S4096x16384 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S1x16384 : Shape := ⟨2, ![1, 16384]⟩
abbrev S256x4096 : Shape := ⟨2, ![256, 4096]⟩
abbrev S4096x512 : Shape := ⟨2, ![4096, 512]⟩
abbrev S1x512 : Shape := ⟨2, ![1, 512]⟩
abbrev S256x512 : Shape := ⟨2, ![256, 512]⟩

abbrev nBuf : Space → Nat
  | .hbm => 15
  | .vmem => 17
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S4096x16384, .f32⟩
  | .hbm, ⟨4, _⟩ => ⟨S16384, .f32⟩
  | .hbm, ⟨5, _⟩ => ⟨S16384x4096, .f32⟩
  | .hbm, ⟨6, _⟩ => ⟨S4096, .f32⟩
  | .hbm, ⟨7, _⟩ => ⟨S1x4096, .f32⟩
  | .hbm, ⟨8, _⟩ => ⟨S1x4096, .f32⟩
  | .hbm, ⟨9, _⟩ => ⟨S4096x4096, .bf16⟩
  | .hbm, ⟨10, _⟩ => ⟨S4096x16384, .bf16⟩
  | .hbm, ⟨11, _⟩ => ⟨S16384x4096, .bf16⟩
  | .hbm, ⟨12, _⟩ => ⟨S1x16384, .f32⟩
  | .hbm, ⟨13, _⟩ => ⟨S1x4096, .f32⟩
  | .hbm, ⟨14, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | .local _ .vmem, ⟨6, _⟩ => ⟨S256x4096, .bf16⟩
  | .local _ .vmem, ⟨7, _⟩ => ⟨S256x4096, .bf16⟩
  | .local _ .vmem, ⟨8, _⟩ => ⟨S4096x512, .bf16⟩
  | .local _ .vmem, ⟨9, _⟩ => ⟨S4096x512, .bf16⟩
  | .local _ .vmem, ⟨10, _⟩ => ⟨S1x512, .f32⟩
  | .local _ .vmem, ⟨11, _⟩ => ⟨S1x512, .f32⟩
  | .local _ .vmem, ⟨12, _⟩ => ⟨S512x4096, .bf16⟩
  | .local _ .vmem, ⟨13, _⟩ => ⟨S512x4096, .bf16⟩
  | .local _ .vmem, ⟨14, _⟩ => ⟨S1x4096, .f32⟩
  | .local _ .vmem, ⟨15, _⟩ => ⟨S256x4096, .f32⟩
  | .local _ .vmem, ⟨16, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S16384_S1x16384 : S16384.ShapeCasts S1x16384
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S512x4096_S512x4096 : S512x4096.ShapeCasts S512x4096
  broadcasts_S1x4096_S256x4096 : S1x4096.Broadcasts S256x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .bf16 = 32 ∨ (Rect.block (s := S4096x4096) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x16384.size a
  hwx1_1 : ∀ i : grid1.Coords, EltTy.bits .bf16 = 32 ∨ (Rect.block (s := S4096x16384) S4096x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S16384x4096.size a
  hwx1_3 : ∀ i : grid1.Coords, EltTy.bits .bf16 = 32 ∨ (Rect.block (s := S16384x4096) S512x4096.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S4096x4096.size a
  hwx1_5 : ∀ i : grid1.Coords, EltTy.bits .f32 = 32 ∨ (Rect.block (s := S4096x4096) S256x4096.size (cc1_transform_5 i) (hinb1_5 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S4096x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S4096 : Shape := ⟨1, ![4096]⟩
abbrev S4096x16384 : Shape := ⟨2, ![4096, 16384]⟩
abbrev S16384 : Shape := ⟨1, ![16384]⟩
abbrev S16384x4096 : Shape := ⟨2, ![16384, 4096]⟩
abbrev S_ : Shape := ⟨0, ![]⟩
abbrev S4096x1 : Shape := ⟨2, ![4096, 1]⟩
abbrev S1x4096 : Shape := ⟨2, ![1, 4096]⟩
abbrev S1x16384 : Shape := ⟨2, ![1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S4096x16384, .f32⟩
  | .hbm, ⟨4, _⟩ => ⟨S16384, .f32⟩
  | .hbm, ⟨5, _⟩ => ⟨S16384x4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S1x4096, .f32⟩
  | .hbm, ⟨34, _⟩ => ⟨S4096x4096, .f32⟩
  | .hbm, ⟨35, _⟩ => ⟨S4096x4096, .f32⟩
  | .hbm, ⟨36, _⟩ => ⟨S4096x16384, .f32⟩
  | .hbm, ⟨37, _⟩ => ⟨S1x16384, .f32⟩
  | .hbm, ⟨38, _⟩ => ⟨S4096x16384, .f32⟩
  | .hbm, ⟨39, _⟩ => ⟨S4096x16384, .f32⟩
  | .hbm, ⟨40, _⟩ => ⟨S_, .f32⟩
  | .hbm, ⟨41, _⟩ => ⟨S4096x16384, .f32⟩
  | .hbm, ⟨42, _⟩ => ⟨S4096x16384, .f32⟩
  | .hbm, ⟨43, _⟩ => ⟨S_, .f32⟩
  | .hbm, ⟨44, _⟩ => ⟨S4096x16384, .f32⟩
  | .hbm, ⟨45, _⟩ => ⟨S4096x16384, .f32⟩
  | .hbm, ⟨46, _⟩ => ⟨S4096x16384, .f32⟩
  | .hbm, ⟨47, _⟩ => ⟨S4096x16384, .f32⟩
  | .hbm, ⟨48, _⟩ => ⟨S4096x16384, .f32⟩
  | .hbm, ⟨49, _⟩ => ⟨S_, .f32⟩
  | .hbm, ⟨50, _⟩ => ⟨S4096x16384, .f32⟩
  | .hbm, ⟨51, _⟩ => ⟨S4096x16384, .f32⟩
  | .hbm, ⟨52, _⟩ => ⟨S4096x16384, .f32⟩
  | .hbm, ⟨53, _⟩ => ⟨S_, .f32⟩
  | .hbm, ⟨54, _⟩ => ⟨S4096x16384, .f32⟩
  | .hbm, ⟨55, _⟩ => ⟨S4096x16384, .f32⟩
  | .hbm, ⟨56, _⟩ => ⟨S4096x16384, .f32⟩
  | .hbm, ⟨57, _⟩ => ⟨S4096x4096, .f32⟩
  | .hbm, ⟨58, _⟩ => ⟨S1x4096, .f32⟩
  | .hbm, ⟨59, _⟩ => ⟨S4096x4096, .f32⟩
  | .hbm, ⟨60, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x4096_S4096x16384_S4096x16384_1_0_0_1_n_n_wf : DotDims.WF S4096x4096 S4096x16384 S4096x16384 [1] [0] [0] [1] [] []
  dot_S4096x16384_S16384x4096_S4096x4096_1_0_0_1_n_n_wf : DotDims.WF S4096x16384 S16384x4096 S4096x4096 [1] [0] [0] [1] [] []

variable [Facts₀]

def dot_S4096x4096_S4096x16384_S4096x16384_1_0_0_1_n_n : DotDims S4096x4096 S4096x16384 S4096x16384 where
  lhsContracting := [1]
  rhsContracting := [0]
  lhsNonContracting := [0]
  rhsNonContracting := [1]
  lhsBatch := []
  rhsBatch := []
  wf := dot_S4096x4096_S4096x16384_S4096x16384_1_0_0_1_n_n_wf
def dot_S4096x16384_S16384x4096_S4096x4096_1_0_0_1_n_n : DotDims S4096x16384 S16384x4096 S4096x4096 where
  lhsContracting := [1]
  rhsContracting := [0]
  lhsNonContracting := [0]
  rhsNonContracting := [1]
  lhsBatch := []
  rhsBatch := []
  wf := dot_S4096x16384_S16384x4096_S4096x4096_1_0_0_1_n_n_wf

class Facts : Prop extends Facts₀ where

variable [Facts]
-- ==== Proof.Spec.lean ====
/-
  The function both programs compute, on the extended reals, written once.

  A row of 4096 entries is normalised: its mean is the sum of the entries divided by 4096, its variance the sum of
  the squared deviations divided by 4096, and entry c becomes (x c - mean) * rsqrt (variance + eps) * gamma c + beta c.
  A normalised row a is sent through two dense layers: hidden unit j is (sum over c of a c * w1 c j) + b1 j, passed
  through the tanh form of the GELU, g(h) = (1/2 * h) * (1 + tanh (k0 * (h + ((k1 * h) * h) * h))); output n is
  (sum over the 16384 hidden units j of g(h j) * w2 j n) + b2 n.

  The float literals (4096, eps = 1e-3, 1/2, k1 = 0.044715, k0 = 0.7978846, 1) stay the bit patterns the two programs
  share: they are never evaluated.  Division is the extended-real division of the exact instance, rsqrt and tanh its
  interpreted functions; the order of the products and sums inside one entry is the order both programs write.
-/
import Idealize.ShloMosaic.PureOps.Ideal
import Idealize.ShloMosaic.Lib.ValueIdx
import Mathlib.Algebra.BigOperators.Fin

noncomputable section

namespace Cert.LnFfn

open Idealize.ShloMosaic Idealize.ShloMosaic.ValueIdx

/-- A matrix of extended reals indexed as the programs index a rank-2 array. -/
abbrev Mat (a b : Nat) : Type := (⟨2, ![a, b]⟩ : Shape).Idx → EReal
/-- A vector of extended reals indexed as the programs index a rank-1 array. -/
abbrev Vct (a : Nat) : Type := (⟨1, ![a]⟩ : Shape).Idx → EReal

/-- The mean of a row: its sum divided by (the float) 4096. -/
def rowMean (row : Fin 4096 → EReal) : EReal :=
  Ideal.div (∑ k : Fin 4096, row k) (Ideal.ofBits .f32 0x45800000#32)

/-- The variance of a row: the sum of the squared deviations from the mean, divided by 4096. -/
def rowVar (row : Fin 4096 → EReal) : EReal :=
  Ideal.div (∑ k : Fin 4096, (row k - rowMean row) * (row k - rowMean row)) (Ideal.ofBits .f32 0x45800000#32)

/-- Entry `c` of the normalised row. -/
def lnRow (row g b : Fin 4096 → EReal) (c : Fin 4096) : EReal :=
  (row c - rowMean row) * Ideal.rsqrt (rowVar row + Ideal.ofBits .f32 0x3A83126F#32) * g c + b c

/-- The tanh form of the GELU at one value. -/
def gelu (h : EReal) : EReal :=
  (Ideal.ofBits .f32 0x3F000000#32 * h)
    * (Ideal.ofBits .f32 0x3F800000#32
        + Ideal.tanh (Ideal.ofBits .f32 0x3F4C422A#32 * (h + ((Ideal.ofBits .f32 0x3D372713#32 * h) * h) * h)))

/-- One hidden unit before the GELU: the row against one column of the first weight matrix, plus its bias. -/
def hidden (a w1col : Fin 4096 → EReal) (b1 : EReal) : EReal :=
  (∑ c : Fin 4096, a c * w1col c) + b1

/-- One term of the second product: hidden unit `j` through the GELU, times its weight. -/
def term (a : Fin 4096 → EReal) (w1 : Fin 4096 → Fin 16384 → EReal) (b1 w2col : Fin 16384 → EReal) (j : Fin 16384) : EReal :=
  gelu (hidden a (fun c => w1 c j) (b1 j)) * w2col j

/-- One output entry from a normalised row: the 16384 terms summed, plus the output bias. -/
def ffnRow (a : Fin 4096 → EReal) (w1 : Fin 4096 → Fin 16384 → EReal) (b1 w2col : Fin 16384 → EReal) (b2 : EReal) : EReal :=
  (∑ j : Fin 16384, term a w1 b1 w2col j) + b2

/-- The normalised array, from the input and the scale and shift given as 1 × 4096 rows. -/
def lnArr (X : Mat 4096 4096) (G B : Mat 1 4096) : Mat 4096 4096 :=
  fun i => lnRow (fun k => X (ix2 (i 0) k)) (fun k => G (ix2 0 k)) (fun k => B (ix2 0 k)) (i 1)

theorem lnArr_apply (X : Mat 4096 4096) (G B : Mat 1 4096) (r c : Fin 4096) :
    lnArr X G B (ix2 r c) = lnRow (fun k => X (ix2 r k)) (fun k => G (ix2 0 k)) (fun k => B (ix2 0 k)) c := rfl

/-- The two dense layers applied to every row of an array, the biases given as 1 × n rows. -/
def ffnArr (A : Mat 4096 4096) (W1 : Mat 4096 16384) (B1 : Mat 1 16384) (W2 : Mat 16384 4096) (B2 : Mat 1 4096) : Mat 4096 4096 :=
  fun i => ffnRow (fun c => A (ix2 (i 0) c)) (fun c j => W1 (ix2 c j)) (fun j => B1 (ix2 0 j)) (fun j => W2 (ix2 j (i 1)))
    (B2 (ix2 0 (i 1)))

theorem ffnArr_apply (A : Mat 4096 4096) (W1 : Mat 4096 16384) (B1 : Mat 1 16384) (W2 : Mat 16384 4096) (B2 : Mat 1 4096)
    (r n : Fin 4096) :
    ffnArr A W1 B1 W2 B2 (ix2 r n)
      = ffnRow (fun c => A (ix2 r c)) (fun c j => W1 (ix2 c j)) (fun j => B1 (ix2 0 j)) (fun j => W2 (ix2 j n)) (B2 (ix2 0 n)) := rfl

/-- The whole function of the seven arguments as the entry points receive them (scale, shift and biases as vectors). -/
def wholeArr (x0 : Mat 4096 4096) (x1 x2 : Vct 4096) (x3 : Mat 4096 16384) (x4 : Vct 16384) (x5 : Mat 16384 4096)
    (x6 : Vct 4096) : Mat 4096 4096 :=
  fun i => ffnRow (lnRow (fun k => x0 (ix2 (i 0) k)) (fun k => x1 (ix1 k)) (fun k => x2 (ix1 k)))
    (fun c j => x3 (ix2 c j)) (fun j => x4 (ix1 j)) (fun j => x5 (ix2 j (i 1))) (x6 (ix1 (i 1)))

theorem wholeArr_apply (x0 : Mat 4096 4096) (x1 x2 : Vct 4096) (x3 : Mat 4096 16384) (x4 : Vct 16384) (x5 : Mat 16384 4096)
    (x6 : Vct 4096) (r n : Fin 4096) :
    wholeArr x0 x1 x2 x3 x4 x5 x6 (ix2 r n)
      = ffnRow (lnRow (fun k => x0 (ix2 r k)) (fun k => x1 (ix1 k)) (fun k => x2 (ix1 k)))
          (fun c j => x3 (ix2 c j)) (fun j => x4 (ix1 j)) (fun j => x5 (ix2 j n)) (x6 (ix1 n)) := rfl

/-- The two stages composed are the whole function, when the row-shaped scale, shift and biases are the vectors re-laid
    as one row. -/
theorem ffnArr_lnArr (x0 : Mat 4096 4096) (x1 x2 : Vct 4096) (x3 : Mat 4096 16384) (x4 : Vct 16384) (x5 : Mat 16384 4096)
    (x6 : Vct 4096) (G B : Mat 1 4096) (B1 : Mat 1 16384) (B2 : Mat 1 4096)
    (hG : ∀ k : Fin 4096, G (ix2 0 k) = x1 (ix1 k)) (hB : ∀ k : Fin 4096, B (ix2 0 k) = x2 (ix1 k))
    (hB1 : ∀ j : Fin 16384, B1 (ix2 0 j) = x4 (ix1 j)) (hB2 : ∀ n : Fin 4096, B2 (ix2 0 n) = x6 (ix1 n)) :
    ffnArr (lnArr x0 G B) x3 B1 x5 B2 = wholeArr x0 x1 x2 x3 x4 x5 x6 := by
  funext i
  obtain ⟨r, n, rfl⟩ : ∃ (r n : Fin 4096), i = ix2 r n := ⟨i 0, i 1, eq_ix2 i⟩
  rw [ffnArr_apply, wholeArr_apply]
  simp only [lnArr_apply, hG, hB, hB1, hB2]

end Cert.LnFfn

end
-- ==== Proof.RunBoth.lean ====
/-
  The run of the kernel's entry point, with its result read.

  The entry point is four segments: two host operations (the scale and the shift re-laid as 1 x 4096 rows), the
  layer-norm region, four host operations (the two weight matrices narrowed to the 16-bit format, the two biases re-laid
  as rows), and the feed-forward region.  The contents of every buffer at each boundary are a fold from the launch
  memory.  This module states the run with the result buffer read at the last boundary, says what that boundary holds
  there (what the second region's write-backs leave in its output array), and walks the contents each region finds in
  its input arrays back to the launch memory: a buffer no segment writes holds what it held before, a buffer a host
  operation writes holds that operation's function of its operand, and the first region's output array holds what that
  region's write-backs leave.  At the exact instance the narrowing is the identity and a vector re-laid as one row
  reads, at (0, k), entry k.
-/
import proofs.«168557_j65077344469262_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.LnFfn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last boundary at the result buffer -/

/-- At the last boundary the result buffer holds what the second region's write-backs leave in its output array. -/
theorem result_eq (c : Dev nD) :
    W4 m ρ c (Proc.devRef .tc main_v7) = (dat1 (V3 m ρ) c).arrAt 5 cfg1.N :=
  W4_arr m ρ c 5

/-! ## Buffers no host operation of a stretch writes -/

/-- The first stretch writes only the two re-laid rows: any other buffer holds its launch contents after it. -/
theorem W1_of_ne (c : Dev nD) (b : Ref sig .tc) (h0 : main_v0 ≠ b) (h1 : main_v1 ≠ b) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0.symm, StableHlo.devRef_ne_of_ne h1.symm⟩))).trans rfl

/-- A buffer that is no array of the first region and that the first stretch does not write holds its launch contents
    when the first region is left. -/
theorem W2_launch (c : Dev nD) (b : Ref sig .tc) (hb : ∀ w, Pipeline.arrRef spec0 w ≠ b) (h0 : main_v0 ≠ b)
    (h1 : main_v1 ≠ b) : W2 m ρ c (Proc.devRef .tc b) = m ((c : Thread nD τ).loc b) :=
  (W2_of_ne m ρ c b hb).trans (W1_of_ne m ρ c b h0 h1)

/-! ## What the first region finds in its arrays -/

/-- The input array is as launched. -/
theorem V1_arg0 (c : Dev nD) : V1 m ρ c main_arg0 = m ((c : Thread nD τ).loc main_arg0) :=
  W1_of_ne m ρ c main_arg0 (by decide) (by decide)

/-- The scale, re-laid as one row. -/
theorem V1_v0 (c : Dev nD) :
    V1 m ρ c main_v0 = shapeCast S1x4096 (m ((c : Thread nD τ).loc main_arg1)) shapeCasts_S4096_S1x4096 := by
  show StableHlo.after hostOps0 (W0 m ρ c) (Proc.devRef .tc main_v0) = _
  after_results
  rfl

/-- The shift, re-laid as one row. -/
theorem V1_v1 (c : Dev nD) :
    V1 m ρ c main_v1 = shapeCast S1x4096 (m ((c : Thread nD τ).loc main_arg2)) shapeCasts_S4096_S1x4096 := by
  show StableHlo.after hostOps0 (W0 m ρ c) (Proc.devRef .tc main_v1) = _
  after_results
  rfl

/-! ## What the second region finds in its arrays -/

/-- The normalised array: what the first region's write-backs leave in its output array. -/
theorem V3_v2 (c : Dev nD) : V3 m ρ c main_v2 = (dat0 (V1 m ρ) c).arrAt 3 cfg0.N := by
  show StableHlo.after hostOps1 (W2 m ρ c) (Proc.devRef .tc main_v2) = _
  after_results
  exact W2_arr m ρ c 3

/-- The first weight matrix, narrowed. -/
theorem V3_v3 (c : Dev nD) :
    V3 m ρ c main_v3 = truncf .bf16 (m ((c : Thread nD τ).loc main_arg3)) bitsLt_bf16_f32 := by
  show StableHlo.after hostOps1 (W2 m ρ c) (Proc.devRef .tc main_v3) = _
  after_results
  rw [W2_launch m ρ c main_arg3 (by decide) (by decide) (by decide)]

/-- The second weight matrix, narrowed. -/
theorem V3_v4 (c : Dev nD) :
    V3 m ρ c main_v4 = truncf .bf16 (m ((c : Thread nD τ).loc main_arg5)) bitsLt_bf16_f32 := by
  show StableHlo.after hostOps1 (W2 m ρ c) (Proc.devRef .tc main_v4) = _
  after_results
  rw [W2_launch m ρ c main_arg5 (by decide) (by decide) (by decide)]

/-- The hidden bias, re-laid as one row. -/
theorem V3_v5 (c : Dev nD) :
    V3 m ρ c main_v5 = shapeCast S1x16384 (m ((c : Thread nD τ).loc main_arg4)) shapeCasts_S16384_S1x16384 := by
  show StableHlo.after hostOps1 (W2 m ρ c) (Proc.devRef .tc main_v5) = _
  after_results
  rw [W2_launch m ρ c main_arg4 (by decide) (by decide) (by decide)]
  rfl

/-- The output bias, re-laid as one row. -/
theorem V3_v6 (c : Dev nD) :
    V3 m ρ c main_v6 = shapeCast S1x4096 (m ((c : Thread nD τ).loc main_arg6)) shapeCasts_S4096_S1x4096 := by
  show StableHlo.after hostOps1 (W2 m ρ c) (Proc.devRef .tc main_v6) = _
  after_results
  rw [W2_launch m ρ c main_arg6 (by decide) (by decide) (by decide)]
  rfl

/-! ## The host operations at the exact instance, read at an index -/

/-- A vector of 4096 entries re-laid as one row reads, at (0, k), entry k. -/
theorem row4096_at (g : Vec Ideal S4096 .f32) (k : Fin 4096) :
    shapeCast S1x4096 g shapeCasts_S4096_S1x4096 (ix2 (0 : Fin 1) k) = g (ix1 k) :=
  shapeCast_a_1a_apply g shapeCasts_S4096_S1x4096 0 k

/-- A vector of 16384 entries re-laid as one row reads, at (0, j), entry j. -/
theorem row16384_at (g : Vec Ideal S16384 .f32) (j : Fin 16384) :
    shapeCast S1x16384 g shapeCasts_S16384_S1x16384 (ix2 (0 : Fin 1) j) = g (ix1 j) :=
  shapeCast_a_1a_apply g shapeCasts_S16384_S1x16384 0 j

/-- Narrowing an array to the 16-bit format changes nothing at the exact instance. -/
theorem narrow_eq {s : Shape} (x : FVec Ideal s .f32) (h : FTy.bits .bf16 < FTy.bits .f32) :
    (truncf .bf16 x h : FVec Ideal s .bf16) = x :=
  funext fun i => truncf_apply x h i

/-! ## The run -/

set_option backward.isDefEq.respectTransparency.types false in
/-- From any launch memory with zero counters, every weakly fair execution of the entry point on the cores terminates,
    nothing faulting, and in every final state each core's result buffer holds the last boundary's contents there and
    each of the seven argument buffers holds what it was launched with. -/
theorem run_result : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.LnFfn.Run

end
-- ==== Proof.LnBlock.lean ====
/-
  The LayerNorm body's arithmetic read at one entry of its 512 × 4096 block.

  The body computes, for a block x of 512 rows, the row sums (a lane reduction), re-lays them as a 512 × 1 column,
  divides by 4096 (the row means), spreads the column over the 4096 columns, subtracts, squares, sums again, divides
  again (the row variances), adds eps, takes the reciprocal square root, spreads that column again, and multiplies;
  the 1 × 4096 scale and shift rows are spread over the 512 rows.  Read at row p and column q every one of these
  operations names one entry (or one row) of its operand: a spread column reads the column's entry of row p, a spread
  row reads the row's entry of column q, and a lane reduction at row p is the sum over that row's 4096 entries.  So the
  entry (p, q) of what the body stores is the specification's lnRow of row p of the block, at q.
-/
import proofs.«168557_j65077344469262_2_alg».proof.Proof.Gen.KernelIdeal.Skeleton
import proofs.«168557_j65077344469262_2_alg».proof.Proof.Spec
import Idealize.ShloMosaic.Lib.ValueIdx
import Idealize.ShloMosaic.Lib.ValueLayout
import Idealize.ShloMosaic.PureOps.Ideal.Laws

noncomputable section

namespace Cert.LnFfn.LnBlock

open Idealize.ShloMosaic Idealize.ShloMosaic.ValueIdx
open Cert.KernelIdeal Cert.KernelIdeal.Gen

/-! ## Columns: a vector re-laid as a column, and a column spread over many columns -/

section Columns
variable {α : Type}

/-- An [a] vector re-laid as an [a, 1] column reads, at (i, u), the vector at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column spread to [a, b] reads, at (p, c), the column's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## The lane reduction of a 512 × 4096 block at a row -/

/-- The sum over axis 1 of a 512 × 4096 block, at row p, is the sum of that row's 4096 entries. -/
theorem rowSum_apply (src : FVec Ideal S512x4096 .f32) (h : S512x4096.Reduces [1] S512) (hφ : FKind.Formats .f32)
    (hacc : (0x00000000#32 : BitVec 32) = FKind.add.neutral .f32 hφ) (p : Fin 512) :
    multiReduction (F := Ideal) .add [1] S512 src 0x00000000#32 h hφ hacc (ix1 p) = ∑ k : Fin 4096, src (ix2 p k) := by
  refine (Ideal.multiReduction_add_single src _ h hφ hacc (ix1 p)).trans ?_
  show ∑ k : Fin 4096, src (h.lift (ix1 p) k) = ∑ k : Fin 4096, src (ix2 p k)
  refine Finset.sum_congr rfl fun k _ => congrArg src ?_
  funext a
  match a with
  | ⟨0, _⟩ => rfl
  | ⟨1, _⟩ => rfl

/-- The reciprocal square root of a vector reads entry by entry. -/
theorem rsqrt_apply {s : Shape} {φ : FTy} (a : FVec Ideal s φ) (i : s.Idx) : rsqrt a i = Ideal.rsqrt (a i) := rfl

/-- A row sum re-laid as a column and divided by a constant column reads, at row p, the sum of row p divided by the
    constant. -/
theorem columnQuotient_apply (src : FVec Ideal S512x4096 .f32) (h : S512x4096.Reduces [1] S512) (hφ : FKind.Formats .f32)
    (hacc : (0x00000000#32 : BitVec 32) = FKind.add.neutral .f32 hφ) (hc : S512.ShapeCasts S512x1)
    (w : BitVec 32) (p : Fin 512) (u : Fin 1) :
    divf (shapeCast S512x1 (multiReduction (F := Ideal) .add [1] S512 src 0x00000000#32 h hφ hacc) hc)
          (broadcast S512x1 (FloatOps.ofBits (F := Ideal) .f32 w)) (ix2 p u)
      = Ideal.div (∑ k : Fin 4096, src (ix2 p k)) (Ideal.ofBits .f32 w) := by
  show Ideal.div (shapeCast S512x1 (multiReduction (F := Ideal) .add [1] S512 src 0x00000000#32 h hφ hacc) hc (ix2 p u))
      (Ideal.ofBits .f32 w) = _
  rw [shapeCast_a_a1_apply, rowSum_apply]

/-! ## The stored block at an entry -/

/-- Entry (p, q) of the block the body stores is the normalised row p of the input block, at q, with the scale and
    shift rows read at column q.  The sum of the four readings: the spread mean column at (p, c) is the mean of row p,
    for every column c (so the squared deviations summed along row p are the specification's); the spread
    reciprocal-square-root column at (p, q) is that function of the variance of row p plus eps; the spread scale and
    shift rows at (p, q) are their entries of column q. -/
theorem pay_apply (v0 : Vec Ideal S512x4096 .f32) (v17 v21 : Vec Ideal S1x4096 .f32) (p : Fin 512) (q : Fin 4096) :
    k0_pay1 (F := Ideal) v0 v17 v21 (ix2 p q)
      = lnRow (fun k => v0 (ix2 p k)) (fun k => v17 (ix2 0 k)) (fun k => v21 (ix2 0 k)) q := by
  -- the column of row means, spread over the block: at (p, c) it is the mean of row p
  have hmean : ∀ c : Fin 4096,
      broadcastTo S512x4096
          (divf (shapeCast S512x1 (multiReduction (F := Ideal) .add [1] S512 v0 0x00000000#32 reduces_S512x4096_S512 (.inl rfl) rfl)
              shapeCasts_S512_S512x1)
            (broadcast S512x1 (FloatOps.ofBits (F := Ideal) .f32 0x45800000#32))) broadcasts_S512x1_S512x4096 (ix2 p c)
        = rowMean (fun k => v0 (ix2 p k)) := fun c =>
    (broadcastTo_a1_ab_apply _ _ p c).trans (columnQuotient_apply v0 _ _ _ _ _ p 0)
  unfold k0_pay1
  dsimp only
  simp only [truncf_apply, addf_apply, mulf_apply, subf_apply]
  unfold lnRow
  refine congrArg₂ (· + ·) (congrArg₂ (· * ·) (congrArg₂ (· * ·) (congrArg (v0 (ix2 p q) - ·) ?_) ?_) ?_) ?_
  · exact hmean q
  · -- the reciprocal square root column: of the variance of row p, plus eps
    refine (broadcastTo_a1_ab_apply _ _ p q).trans ?_
    refine congrArg Ideal.rsqrt (congrArg (· + Ideal.ofBits .f32 0x3A83126F#32) ?_)
    refine (columnQuotient_apply _ _ _ _ _ _ p 0).trans ?_
    unfold rowVar
    refine congrArg (Ideal.div · (Ideal.ofBits .f32 0x45800000#32)) (Finset.sum_congr rfl fun k _ => ?_)
    exact congrArg (fun m => (v0 (ix2 p k) - m) * (v0 (ix2 p k) - m)) (hmean k)
  · exact (broadcastTo_1b_ab_apply _ _ p q).trans (congrFun (shapeCast_self v17 _) _)
  · exact (broadcastTo_1b_ab_apply _ _ p q).trans (congrFun (shapeCast_self v21 _) _)

end Cert.LnFfn.LnBlock

end
-- ==== Proof.LnArray.lean ====
/-
  From the LayerNorm region's blocks to its output array.

  The region runs over 8 grid points.  Point t reads rows 512 t … 512 t + 511 of the 4096 × 4096 input (all 4096
  columns), the whole 1 × 4096 scale row and the whole 1 × 4096 shift row, and writes back rows 512 t … 512 t + 511 of
  the output.  Entry (p, q) of what point t writes is the normalised row p of its input block at q, and row p of that
  block is row 512 t + p of the input: so what point t writes back is block t of the normalised array.  Row r of the
  output lies in the block of point r / 512, and every point writes its block back: the eight blocks cover the output,
  which therefore ends holding the normalised array of the input, the scale row and the shift row as the region found
  them.
-/
import proofs.«168557_j65077344469262_2_alg».proof.Proof.Gen.KernelIdeal.Frame
import proofs.«168557_j65077344469262_2_alg».proof.Proof.LnBlock
import proofs.«168557_j65077344469262_2_alg».proof.Proof.Spec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.LnFfn.Region0

open Cert.KernelIdeal Cert.KernelIdeal.Gen

variable (V : (c : Dev nD) → (b : Ref sig .tc) → Buf (Elt Ideal) ((c : Thread nD τ).loc b))

/-- The body's accesses start at the corner of their buffers. -/
theorem corner : (![0, 0] : Fin 2 → Nat) = fun _ => 0 := funext fun a => by fin_cases a <;> rfl

/-- The block indices, decided over the 8 grid points: the input's and the output's block at point t is block (t, 0);
    the scale row's and the shift row's is block (0, 0), the whole row. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks a point reads, as entries of the arrays -/

/-- Entry (p, k) of the input's block at point t is entry (512 t + p, k) of the input. -/
theorem inputBlock_apply (c : Dev nD) (t : Fin cfg0.N) (p : Fin 512) (k : Fin 4096) (r : Fin 4096)
    (hr : r.val = t.val * 512 + p.val) :
    (iblk0 V c 0 t : Vec Ideal S512x4096 .f32) (ix2 p k) = (V c main_arg0 : S4096x4096.Idx → EReal) (ix2 r k) := by
  obtain ⟨e0, e1, -⟩ := block_index t
  unfold iblk0
  rw [View.read_apply]
  show V c main_arg0 _ = V c main_arg0 _
  refine congrArg (V c main_arg0) (funext fun a => Fin.ext ?_)
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- Entry (0, k) of the scale row's block at any point is entry (0, k) of the scale row. -/
theorem scaleBlock_apply (c : Dev nD) (t : Fin cfg0.N) (k : Fin 4096) :
    (iblk0 V c 1 t : Vec Ideal S1x4096 .f32) (ix2 0 k) = (V c main_v0 : S1x4096.Idx → EReal) (ix2 0 k) := by
  obtain ⟨-, -, e2, e3, -⟩ := block_index t
  unfold iblk0
  rw [View.read_apply]
  show V c main_v0 _ = V c main_v0 _
  refine congrArg (V c main_v0) (funext fun a => Fin.ext ?_)
  match a with
  | ⟨0, _⟩ => show win0_1.index t (0 : Fin 2) * 1 + 1 * 0 = 0; rw [e2]
  | ⟨1, _⟩ => show win0_1.index t (1 : Fin 2) * 4096 + 1 * k.val = k.val; rw [e3]; omega

/-- Entry (0, k) of the shift row's block at any point is entry (0, k) of the shift row. -/
theorem shiftBlock_apply (c : Dev nD) (t : Fin cfg0.N) (k : Fin 4096) :
    (iblk0 V c 2 t : Vec Ideal S1x4096 .f32) (ix2 0 k) = (V c main_v1 : S1x4096.Idx → EReal) (ix2 0 k) := by
  obtain ⟨-, -, -, -, e4, e5, -⟩ := block_index t
  unfold iblk0
  rw [View.read_apply]
  show V c main_v1 _ = V c main_v1 _
  refine congrArg (V c main_v1) (funext fun a => Fin.ext ?_)
  match a with
  | ⟨0, _⟩ => show win0_2.index t (0 : Fin 2) * 1 + 1 * 0 = 0; rw [e4]
  | ⟨1, _⟩ => show win0_2.index t (1 : Fin 2) * 4096 + 1 * k.val = k.val; rw [e5]; omega

/-! ## What a point writes back -/

/-- Over any three blocks whose entries are those of arrays X, G, B — row p of the first being row r of X —, entry
    (p, q) of what the body stores is entry (r, q) of the normalised array of X, G, B. -/
theorem stored_entry (x0 : Vec Ideal S512x4096 .f32) (x1 x2 : Vec Ideal S1x4096 .f32) (X : Mat 4096 4096) (G B : Mat 1 4096)
    (p : Fin 512) (q : Fin 4096) (r : Fin 4096) (h0 : ∀ k : Fin 4096, x0 (ix2 p k) = X (ix2 r k))
    (h1 : ∀ k : Fin 4096, x1 (ix2 0 k) = G (ix2 0 k)) (h2 : ∀ k : Fin 4096, x2 (ix2 0 k) = B (ix2 0 k)) :
    k0_pay1 (F := Ideal) x0 x1 x2 (ix2 p q) = lnArr X G B (ix2 r q) := by
  rw [LnBlock.pay_apply, lnArr_apply]
  simp only [h0, h1, h2]

/-- What point t writes back is block t of the normalised array. -/
theorem flushed_eq (c : Dev nD) (t : Fin cfg0.N) :
    (dat0 (F := Ideal) V c).flushed 3 t
      = ((cfg0.win 3).blk t).view.read (Elt Ideal) (lnArr (V c main_arg0) (V c main_v0) (V c main_v1)) := by
  show (cfg0.win 3).cut (grid0.coords t) ((dat0 (F := Ideal) V c).after 3 t) = _
  rw [after0_3]
  unfold out0_3
  rw [View.canon_unit_zero corner]
  simp only [View.ld_unit_zero (S := S512x4096) corner, View.ld_unit_zero (S := S1x4096) corner]
  obtain ⟨-, -, -, -, -, -, e6, e7⟩ := block_index t
  have hN : cfg0.N = 8 := N_0
  refine funext fun (j : S512x4096.Idx) => ?_
  obtain ⟨p, q, rfl⟩ : ∃ (p : Fin 512) (q : Fin 4096), j = ix2 p q := ⟨j 0, j 1, eq_ix2 j⟩
  have ht : t.val < 8 := hN ▸ t.isLt
  rw [View.read_apply]
  refine (stored_entry (iblk0 V c 0 t) (iblk0 V c 1 t) (iblk0 V c 2 t) (V c main_arg0) (V c main_v0) (V c main_v1) p q
    ⟨t.val * 512 + p.val, by omega⟩ (fun k => inputBlock_apply V c t p k _ rfl) (fun k => scaleBlock_apply V c t k)
    (fun k => shiftBlock_apply V c t k)).trans ?_
  refine congrArg (lnArr (V c main_arg0) (V c main_v0) (V c main_v1)) (funext fun a => Fin.ext ?_)
  match a with
  | ⟨0, _⟩ => show t.val * 512 + p.val = win0_3.index t (0 : Fin 2) * 512 + 1 * p.val; rw [e6]; omega
  | ⟨1, _⟩ => show q.val = win0_3.index t (1 : Fin 2) * 4096 + 1 * q.val; rw [e7]; omega

/-! ## The cover -/

/-- An index of the output is in point t's block iff each coordinate is in the block's range on its axis. -/
theorem mem_block (t : Fin cfg0.N) (i : S4096x4096.Idx) :
    i ∈ ((cfg0.win 3).blk t).view.set
      ↔ ∀ a : Fin 2, win0_3.index t a * S512x4096.size a ≤ (i a).val
          ∧ (i a).val < win0_3.index t a * S512x4096.size a + S512x4096.size a := by
  show i ∈ ((View.whole main_v2).slice (win0_3.rect t)).set ↔ _
  rw [View.set_slice_whole, Rect.mem_set_unit]
  exact Iff.rfl

/-- Every index of the output is in the block of a point that writes back: row r in that of point r / 512. -/
theorem covered (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, e6, e7⟩ := block_index t
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    rw [e6, ht]; omega
  | ⟨1, _⟩ =>
    show win0_3.index t (1 : Fin 2) * 4096 ≤ (i 1).val ∧ (i 1).val < win0_3.index t (1 : Fin 2) * 4096 + 4096
    rw [e7]; omega

/-! ## The output array after the region -/

/-- The region's output array ends holding the normalised array of the input, the scale row and the shift row as the
    region found them. -/
theorem ln_final (c : Dev nD) :
    (dat0 (F := Ideal) V c).arrAt 3 cfg0.N = lnArr (V c main_arg0) (V c main_v0) (V c main_v1) :=
  (dat0 (F := Ideal) V c).arrAt_eq_of_cover 3 (lnArr (V c main_arg0) (V c main_v0) (V c main_v1))
    (fun t _ => flushed_eq V c t) covered

end Cert.LnFfn.Region0

end
-- ==== Proof.BlockSum.lean ====
/-
  A sum of n terms taken b at a time.

  A family indexed by Fin n is extended by zero to the naturals; its whole sum is then the sum of the extension over the
  first n naturals, and the sum over the first (k + 1) * b naturals is the sum over the first k * b plus the b terms of
  block k.  Only the laws of a commutative additive monoid are used, so the sums may be of extended reals.
-/
import Mathlib.Algebra.BigOperators.Fin
import Mathlib.Algebra.BigOperators.Intervals

namespace Cert.LnFfn.BlockSum

open Finset

variable {M : Type*} [AddCommMonoid M]

/-- A family over `Fin n` extended by zero to every natural. -/
def ext {n : ℕ} (f : Fin n → M) (j : ℕ) : M := if h : j < n then f ⟨j, h⟩ else 0

theorem ext_of_lt {n : ℕ} (f : Fin n → M) {j : ℕ} (h : j < n) : ext f j = f ⟨j, h⟩ := dif_pos h

/-- The whole sum is the sum of the extension over the first `n` naturals. -/
theorem sum_eq_range {n : ℕ} (f : Fin n → M) : ∑ j : Fin n, f j = ∑ j ∈ range n, ext f j := by
  rw [← Fin.sum_univ_eq_sum_range (ext f) n]
  exact Finset.sum_congr rfl fun j _ => (ext_of_lt f j.isLt).symm

/-- One more block of `b` terms. -/
theorem range_succ_block (g : ℕ → M) (k b : ℕ) :
    ∑ j ∈ range ((k + 1) * b), g j = ∑ j ∈ range (k * b), g j + ∑ q : Fin b, g (k * b + q.val) := by
  rw [Nat.succ_mul, Finset.sum_range_add, Fin.sum_univ_eq_sum_range (fun q => g (k * b + q)) b]

/-- The first block alone. -/
theorem range_first_block (g : ℕ → M) (b : ℕ) :
    ∑ j ∈ range ((0 + 1) * b), g j = ∑ q : Fin b, g (0 * b + q.val) := by
  rw [range_succ_block, Nat.zero_mul, Finset.sum_range_zero, zero_add]

end Cert.LnFfn.BlockSum
-- ==== Proof.LibHostDot.lean ====
/-
  A host matrix product read at an index.

  The host's `dot_general` of an m×k matrix by a k×n matrix, contracting the first operand's second axis with the
  second operand's first axis and with no batch axis, read at row `a` and column `b` at the exact instance, is the sum
  over the contracted coordinate `c` of the products of the entries `(a, c)` and `(c, b)`.  Stated for the record
  spelt out with its well-formedness evidence as a variable, which is the shape a printed program's product records
  take once unfolded.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- The host product of an m×k by a k×n matrix at `(a, b)` is `∑ c, A (a, c) * B (c, b)`. -/
theorem hostDot_nn_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDot

end
-- ==== Proof.FfnBlock.lean ====
/-
  The three values the fused feed-forward body stores into its resident output block, read at one entry (p, n).

  * The reset value is zero everywhere.
  * The accumulation step adds to the entry it finds the contribution of the current 512 hidden units: each hidden
    unit q of the block is the row p of the normalised block against column q of the first weight block plus its bias,
    passed through the GELU, and multiplied by entry (q, n) of the second weight block; the 512 products are summed.
    A product of tiles accumulated into a zero tile is that plain sum.
  * The closing step adds entry n of the output bias row.

  Every layout change in the body is a cast to the same shape (the identity) or the bias row repeated down the rows.
-/
import proofs.«168557_j65077344469262_2_alg».proof.Proof.Gen.KernelIdeal.Skeleton
import proofs.«168557_j65077344469262_2_alg».proof.Proof.Spec
import proofs.«168557_j65077344469262_2_alg».proof.Proof.LibHostDot
import Idealize.ShloMosaic.Lib.ValueIdx
import Idealize.ShloMosaic.Lib.Pipeline.Value
import Idealize.ShloMosaic.PureOps.Ideal.Laws

noncomputable section

namespace Cert.LnFfn.FfnBlock

open Idealize.ShloMosaic Idealize.ShloMosaic.ValueIdx Cert.KernelIdeal Cert.KernelIdeal.Gen Cert.LnFfn

/-- A product of an m×k tile by a k×n tile accumulated into the zero tile, read at (a, b), is the sum over the
    contracted coordinate of the products of the entries (a, c) and (c, b). -/
theorem tileDot_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) :=
  (Ideal.matmul_constant_zero_apply _ prec A B (ix2 a b)).trans
    ((Ideal.dotGeneral_apply _ prec _ A B (ix2 a b)).symm.trans (Cert.LibHostDot.hostDot_nn_apply w prec A B a b))

/-- The bias row of a 1×512 tile repeated down 256 rows, read at (p, q), is its entry q. -/
theorem biasRows_apply (v : Vec Ideal S1x512 .f32) (p : Fin 256) (q : Fin 512) :
    broadcastTo S256x512 v broadcasts_S1x512_S256x512 (ix2 p q) = v (ix2 0 q) :=
  broadcastTo_apply v _ (ix2 p q) (ix2 0 q) (fun a => by match a with | ⟨0, _⟩ => rfl | ⟨1, _⟩ => rfl)

/-- The bias row of a 1×4096 tile repeated down 256 rows, read at (p, n), is its entry n. -/
theorem outBiasRows_apply (v : Vec Ideal S1x4096 .f32) (p : Fin 256) (n : Fin 4096) :
    broadcastTo S256x4096 v broadcasts_S1x4096_S256x4096 (ix2 p n) = v (ix2 0 n) :=
  broadcastTo_apply v _ (ix2 p n) (ix2 0 n) (fun a => by match a with | ⟨0, _⟩ => rfl | ⟨1, _⟩ => rfl)

/-- The reset value is zero at every entry. -/
theorem reset_apply (i : S256x4096.Idx) : k1_pay2 (F := Ideal) i = 0 := by
  show Ideal.ofBits .f32 0x00000000#32 = 0
  exact Ideal.ofBits_zero_f32

/-- The closing step at (p, n): the entry found plus the output bias. -/
theorem close_apply (v36 : Vec Ideal S256x4096 .f32) (v38 : Vec Ideal S1x4096 .f32) (p : Fin 256) (n : Fin 4096) :
    k1_pay1 (F := Ideal) v36 v38 (ix2 p n) = v36 (ix2 p n) + v38 (ix2 0 n) := by
  unfold k1_pay1
  simp only [shapeCast_self]
  rw [addf_apply, outBiasRows_apply]

/-- The accumulation step at (p, n): the entry found plus the 512 terms of the current block of hidden units. -/
theorem step_apply (v3 : Vec Ideal S256x4096 .bf16) (v5 : Vec Ideal S4096x512 .bf16) (v8 : Vec Ideal S1x512 .f32)
    (v26 : Vec Ideal S512x4096 .bf16) (v28 : Vec Ideal S256x4096 .f32) (p : Fin 256) (n : Fin 4096) :
    k1_pay3 (F := Ideal) v3 v5 v8 v26 v28 (ix2 p n)
      = v28 (ix2 p n) + ∑ q : Fin 512,
          gelu (hidden (fun c => v3 (ix2 p c)) (fun c => v5 (ix2 c q)) (v8 (ix2 0 q))) * v26 (ix2 q n) := by
  unfold k1_pay3
  simp only [shapeCast_self]
  rw [addf_apply]
  refine congrArg (v28 (ix2 p n) + ·) ?_
  rw [show dot_S256x512_S512x4096_S256x4096_1_0_0_1_n_n
      = (⟨[1], [0], [0], [1], [], [], dot_S256x512_S512x4096_S256x4096_1_0_0_1_n_n_wf⟩ : DotDims S256x512 S512x4096 S256x4096) from rfl,
    tileDot_zero_apply]
  refine Finset.sum_congr rfl fun q _ => ?_
  refine congrArg (· * v26 (ix2 q n)) ?_
  have hH : (addf (matmul (F := Ideal) (φ₁ := .bf16) (φ₂ := .bf16) dot_S256x4096_S4096x512_S256x512_1_0_0_1_n_n none v3 v5 (constant S256x512 .f32 0x00000000#32))
        (broadcastTo S256x512 v8 broadcasts_S1x512_S256x512)) (ix2 p q)
      = hidden (fun c => v3 (ix2 p c)) (fun c => v5 (ix2 c q)) (v8 (ix2 0 q)) := by
    rw [addf_apply, biasRows_apply, show dot_S256x4096_S4096x512_S256x512_1_0_0_1_n_n
      = (⟨[1], [0], [0], [1], [], [], dot_S256x4096_S4096x512_S256x512_1_0_0_1_n_n_wf⟩ : DotDims S256x4096 S4096x512 S256x512) from rfl,
      tileDot_zero_apply]
    rfl
  rw [← hH]
  generalize addf (matmul (F := Ideal) (φ₁ := .bf16) (φ₂ := .bf16) dot_S256x4096_S4096x512_S256x512_1_0_0_1_n_n none v3 v5 (constant S256x512 .f32 0x00000000#32))
        (broadcastTo S256x512 v8 broadcasts_S1x512_S256x512) = H
  rfl

end Cert.LnFfn.FfnBlock

end
-- ==== Proof.FfnPieces.lean ====
/-
  What one run of the fused feed-forward body leaves in its resident output block, in each of its three control cases,
  as a value of the blocks it was given.

  * first hidden block of a row block: the block is reset to zero, read back, and the accumulation step applied to it;
  * a middle hidden block: the accumulation step applied to what the point before left;
  * the last hidden block: the accumulation step applied to what the point before left, read back, then the closing
    step (the output bias added).

  Each case's stores cover the whole block through the rectangle at zero offsets, so the last store's value is what
  remains, and a read-back of an earlier covering store reads that store's value.
-/
import proofs.«168557_j65077344469262_2_alg».proof.Proof.Gen.KernelIdeal.Frame
import Idealize.ShloMosaic.Lib.Pipeline.Value
import Idealize.ShloMosaic.Lib.Tactic

noncomputable section

namespace Cert.LnFfn.FfnPieces

open Idealize.ShloMosaic Idealize.ShloMosaic.TcCoe Idealize.ShloMosaic.Tactic Idealize.SL.Sem
open Cert.KernelIdeal Cert.KernelIdeal.Gen

variable {F : FTy → Type} [FloatOps F]

/-- The zero offsets of a whole-block access, as a constant function. -/
theorem zeroOffsets : (![0, 0] : Fin 2 → Nat) = fun _ => 0 := funext fun a => by fin_cases a <;> rfl

/-- A middle hidden block: the accumulation step over the block found. -/
theorem left_B (c : Dev nD) (i : grid1.Coords) (arg2 : Memref sig .tc .vmem S256x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S256x4096 .f32) (harg7 : arg7.IsWhole) (hc0 : ¬cond1_0 i) (hc1 : ¬cond1_1 i)
    (x0 : Vec F S256x4096 .bf16) (x1 : Vec F S4096x512 .bf16) (x2 : Vec F S1x512 .f32) (x3 : Vec F S512x4096 .bf16) (x4 : Vec F S1x4096 .f32) (xo5 : Vec F S256x4096 .f32) :
    out1_B_5 c i arg2 harg2 arg3 harg3 arg4 harg4 arg5 harg5 arg6 harg6 arg7 harg7 hc0 hc1 x0 x1 x2 x3 x4 xo5 = k1_pay3 x0 x1 x2 x3 xo5 := by
  unfold out1_B_5
  rw [View.read_writes_eq_canon _ _ _ (cover1_B_5 c i arg2 harg2 arg3 harg3 arg4 harg4 arg5 harg5 arg6 harg6 arg7 harg7 hc0 hc1 x0 x1 x2 x3 x4 xo5)]
  unfold kernelRun1_B
  dsimp only
  rw [View.canon_unit_zero zeroOffsets]
  simp only [View.readAt_eq_ld, harg2.read_unread, harg3.read_unread, harg4.read_unread, harg5.read_unread, harg6.read_unread, harg7.read_unread, View.ld_unit_zero (S := S256x4096) zeroOffsets, View.ld_unit_zero (S := S4096x512) zeroOffsets, View.ld_unit_zero (S := S1x512) zeroOffsets, View.ld_unit_zero (S := S512x4096) zeroOffsets, View.ld_unit_zero (S := S1x4096) zeroOffsets]

/-- The first hidden block: the accumulation step over the zero block. -/
theorem left_A (c : Dev nD) (i : grid1.Coords) (arg2 : Memref sig .tc .vmem S256x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S256x4096 .f32) (harg7 : arg7.IsWhole) (hc0 : cond1_0 i) (hc1 : ¬cond1_1 i)
    (x0 : Vec F S256x4096 .bf16) (x1 : Vec F S4096x512 .bf16) (x2 : Vec F S1x512 .f32) (x3 : Vec F S512x4096 .bf16) (x4 : Vec F S1x4096 .f32) :
    out1_A_5 c i arg2 harg2 arg3 harg3 arg4 harg4 arg5 harg5 arg6 harg6 arg7 harg7 hc0 hc1 x0 x1 x2 x3 x4 = k1_pay3 x0 x1 x2 x3 (k1_pay2 (F := F)) := by
  unfold out1_A_5
  rw [View.read_writes_eq_canon _ _ _ (cover1_A_5 c i arg2 harg2 arg3 harg3 arg4 harg4 arg5 harg5 arg6 harg6 arg7 harg7 hc0 hc1 x0 x1 x2 x3 x4)]
  unfold kernelRun1_A
  dsimp only
  sl_unfold_words
  rw [View.canon_cons_unit_zero (S := S256x4096) zeroOffsets, View.readCov_unit_zero (S := S256x4096) _ zeroOffsets]
  simp only [View.readAt_eq_ld, harg2.read_unread, harg3.read_unread, harg4.read_unread, harg5.read_unread, harg6.read_unread, harg7.read_unread, View.ld_unit_zero (S := S256x4096) zeroOffsets, View.ld_unit_zero (S := S4096x512) zeroOffsets, View.ld_unit_zero (S := S1x512) zeroOffsets, View.ld_unit_zero (S := S512x4096) zeroOffsets, View.ld_unit_zero (S := S1x4096) zeroOffsets]

/-- The last hidden block: the accumulation step over the block found, then the closing step. -/
theorem left_C (c : Dev nD) (i : grid1.Coords) (arg2 : Memref sig .tc .vmem S256x4096 .bf16) (harg2 : arg2.IsWhole) (arg3 : Memref sig .tc .vmem S4096x512 .bf16) (harg3 : arg3.IsWhole) (arg4 : Memref sig .tc .vmem S1x512 .f32) (harg4 : arg4.IsWhole) (arg5 : Memref sig .tc .vmem S512x4096 .bf16) (harg5 : arg5.IsWhole) (arg6 : Memref sig .tc .vmem S1x4096 .f32) (harg6 : arg6.IsWhole) (arg7 : Memref sig .tc .vmem S256x4096 .f32) (harg7 : arg7.IsWhole) (hc0 : ¬cond1_0 i) (hc1 : cond1_1 i)
    (x0 : Vec F S256x4096 .bf16) (x1 : Vec F S4096x512 .bf16) (x2 : Vec F S1x512 .f32) (x3 : Vec F S512x4096 .bf16) (x4 : Vec F S1x4096 .f32) (xo5 : Vec F S256x4096 .f32) :
    out1_C_5 c i arg2 harg2 arg3 harg3 arg4 harg4 arg5 harg5 arg6 harg6 arg7 harg7 hc0 hc1 x0 x1 x2 x3 x4 xo5 = k1_pay1 (k1_pay3 x0 x1 x2 x3 xo5) x4 := by
  unfold out1_C_5
  rw [View.read_writes_eq_canon _ _ _ (cover1_C_5 c i arg2 harg2 arg3 harg3 arg4 harg4 arg5 harg5 arg6 harg6 arg7 harg7 hc0 hc1 x0 x1 x2 x3 x4 xo5)]
  unfold kernelRun1_C
  dsimp only
  sl_unfold_words
  rw [View.canon_cons_unit_zero (S := S256x4096) zeroOffsets, View.readCov_unit_zero (S := S256x4096) _ zeroOffsets]
  simp only [View.readAt_eq_ld, harg2.read_unread, harg3.read_unread, harg4.read_unread, harg5.read_unread, harg6.read_unread, harg7.read_unread, View.ld_unit_zero (S := S256x4096) zeroOffsets, View.ld_unit_zero (S := S4096x512) zeroOffsets, View.ld_unit_zero (S := S1x512) zeroOffsets, View.ld_unit_zero (S := S512x4096) zeroOffsets, View.ld_unit_zero (S := S1x4096) zeroOffsets]

end Cert.LnFfn.FfnPieces

end
-- ==== Proof.FfnArray.lean ====
/-
  The array the fused feed-forward region leaves, for any contents of its operands when the region is entered.

  The grid has 16 row blocks of 256 rows, and for each of them 32 hidden blocks of 512 hidden units, visited in order;
  point t works on row block t / 32 and hidden block t % 32, and the output block of a row block stays resident while its
  32 hidden blocks go by, written back after the last.  Entry (p, n) of the resident block, after hidden block k, holds
  the sum of the first (k + 1) * 512 terms of the second product for row 256 * (t / 32) + p and column n: zero plus the
  first block's terms at k = 0, one more block's terms at each later k (by induction on the point); after the last
  hidden block all 16384 terms are in, and the output bias is added.  The row blocks written back tile the array.
-/
import proofs.«168557_j65077344469262_2_alg».proof.Proof.Gen.KernelIdeal.Frame
import proofs.«168557_j65077344469262_2_alg».proof.Proof.Spec
import proofs.«168557_j65077344469262_2_alg».proof.Proof.BlockSum
import proofs.«168557_j65077344469262_2_alg».proof.Proof.FfnBlock
import proofs.«168557_j65077344469262_2_alg».proof.Proof.FfnPieces
import Idealize.ShloMosaic.Lib.Pipeline.Value
import Idealize.ShloMosaic.Lib.ValueIdx

set_option maxRecDepth 16384

noncomputable section

namespace Cert.LnFfn.Region1

open Idealize.ShloMosaic Idealize.ShloMosaic.TcCoe Idealize.ShloMosaic.ValueIdx Idealize.SL.Sem
open Idealize.ShloMosaic.Pipeline (Dat)
open Cert.KernelIdeal Cert.KernelIdeal.Gen Cert.LnFfn Cert.LnFfn.BlockSum Cert.LnFfn.FfnBlock Cert.LnFfn.FfnPieces

variable (V : (c : Dev nD) → (b : Ref sig .tc) → Buf (Elt Ideal) ((c : Thread nD τ).loc b))

/-- The block each window reads or writes at each point, decided once over the 512 points: the normalised rows and the
    output follow the row block t / 32, the two weight blocks and the first bias the hidden block t % 32, the output bias
    stays. -/
theorem index_facts : ∀ t : Fin cfg1.N,
    win1_0.index t (0 : Fin 2) = t.val / 32 ∧ win1_0.index t (1 : Fin 2) = 0
    ∧ win1_1.index t (0 : Fin 2) = 0 ∧ win1_1.index t (1 : Fin 2) = t.val % 32
    ∧ win1_2.index t (0 : Fin 2) = 0 ∧ win1_2.index t (1 : Fin 2) = t.val % 32
    ∧ win1_3.index t (0 : Fin 2) = t.val % 32 ∧ win1_3.index t (1 : Fin 2) = 0
    ∧ win1_4.index t (0 : Fin 2) = 0 ∧ win1_4.index t (1 : Fin 2) = 0
    ∧ win1_5.index t (0 : Fin 2) = t.val / 32 ∧ win1_5.index t (1 : Fin 2) = 0 :=
  (by decide +kernel : ∀ t : Fin grid1.N, _)

theorem lt_points (t : Fin cfg1.N) : t.val < 512 := lt_of_lt_of_eq t.isLt (show cfg1.N = 512 from N_1)

/-- The array row of row p of point t's row block. -/
def rowOf (t : Fin cfg1.N) (p : Fin 256) : Fin 4096 :=
  ⟨256 * (t.val / 32) + p.val, by have := lt_points t; have := p.isLt; omega⟩

/-- The hidden unit that is unit q of point t's hidden block. -/
def hidOf (t : Fin cfg1.N) (q : Fin 512) : Fin 16384 :=
  ⟨(t.val % 32) * 512 + q.val, by have := q.isLt; omega⟩

/-! ## The operand blocks read at an index -/

theorem blk0 (c : Dev nD) (t : Fin cfg1.N) (p : Fin 256) (k : Fin 4096) :
    iblk1 V c 0 t (ix2 p k) = V c main_v2 (ix2 (rowOf t p) k) := by
  obtain ⟨e0, e1, -⟩ := index_facts t
  unfold iblk1
  rw [View.read_apply]
  show V c main_v2 (((cfg1.win 0).blk t).view.emb (ix2 p k)) = _
  refine congrArg (V c main_v2) (funext fun a => Fin.ext ?_)
  match a with
  | ⟨0, _⟩ => show win1_0.index t (0 : Fin 2) * 256 + 1 * p.val = 256 * (t.val / 32) + p.val; rw [e0]; omega
  | ⟨1, _⟩ => show win1_0.index t (1 : Fin 2) * 4096 + 1 * k.val = k.val; rw [e1]; omega

theorem blk1 (c : Dev nD) (t : Fin cfg1.N) (k : Fin 4096) (q : Fin 512) :
    iblk1 V c 1 t (ix2 k q) = V c main_v3 (ix2 k (hidOf t q)) := by
  obtain ⟨-, -, e0, e1, -⟩ := index_facts t
  unfold iblk1
  rw [View.read_apply]
  show V c main_v3 (((cfg1.win 1).blk t).view.emb (ix2 k q)) = _
  refine congrArg (V c main_v3) (funext fun a => Fin.ext ?_)
  match a with
  | ⟨0, _⟩ => show win1_1.index t (0 : Fin 2) * 4096 + 1 * k.val = k.val; rw [e0]; omega
  | ⟨1, _⟩ => show win1_1.index t (1 : Fin 2) * 512 + 1 * q.val = (t.val % 32) * 512 + q.val; rw [e1]; omega

theorem blk2 (c : Dev nD) (t : Fin cfg1.N) (q : Fin 512) :
    iblk1 V c 2 t (ix2 0 q) = V c main_v5 (ix2 0 (hidOf t q)) := by
  obtain ⟨-, -, -, -, e0, e1, -⟩ := index_facts t
  unfold iblk1
  rw [View.read_apply]
  show V c main_v5 (((cfg1.win 2).blk t).view.emb (ix2 0 q)) = _
  refine congrArg (V c main_v5) (funext fun a => Fin.ext ?_)
  match a with
  | ⟨0, _⟩ => show win1_2.index t (0 : Fin 2) * 1 + 1 * 0 = 0; rw [e0]
  | ⟨1, _⟩ => show win1_2.index t (1 : Fin 2) * 512 + 1 * q.val = (t.val % 32) * 512 + q.val; rw [e1]; omega

theorem blk3 (c : Dev nD) (t : Fin cfg1.N) (q : Fin 512) (n : Fin 4096) :
    iblk1 V c 3 t (ix2 q n) = V c main_v4 (ix2 (hidOf t q) n) := by
  obtain ⟨-, -, -, -, -, -, e0, e1, -⟩ := index_facts t
  unfold iblk1
  rw [View.read_apply]
  show V c main_v4 (((cfg1.win 3).blk t).view.emb (ix2 q n)) = _
  refine congrArg (V c main_v4) (funext fun a => Fin.ext ?_)
  match a with
  | ⟨0, _⟩ => show win1_3.index t (0 : Fin 2) * 512 + 1 * q.val = (t.val % 32) * 512 + q.val; rw [e0]; omega
  | ⟨1, _⟩ => show win1_3.index t (1 : Fin 2) * 4096 + 1 * n.val = n.val; rw [e1]; omega

theorem blk4 (c : Dev nD) (t : Fin cfg1.N) (n : Fin 4096) :
    iblk1 V c 4 t (ix2 0 n) = V c main_v6 (ix2 0 n) := by
  obtain ⟨-, -, -, -, -, -, -, -, e0, e1, -⟩ := index_facts t
  unfold iblk1
  rw [View.read_apply]
  show V c main_v6 (((cfg1.win 4).blk t).view.emb (ix2 0 n)) = _
  refine congrArg (V c main_v6) (funext fun a => Fin.ext ?_)
  match a with
  | ⟨0, _⟩ => show win1_4.index t (0 : Fin 2) * 1 + 1 * 0 = 0; rw [e0]
  | ⟨1, _⟩ => show win1_4.index t (1 : Fin 2) * 4096 + 1 * n.val = n.val; rw [e1]; omega

/-! ## The running sum -/

/-- The 16384 terms of the second product for array row `r` and column `n`. -/
def tm (c : Dev nD) (r n : Fin 4096) : Fin 16384 → EReal :=
  term (fun k => V c main_v2 (ix2 r k)) (fun k j => V c main_v3 (ix2 k j)) (fun j => V c main_v5 (ix2 0 j))
    (fun j => V c main_v4 (ix2 j n))

/-- Term q of point t's hidden block, computed from the blocks, is term (t % 32) * 512 + q of the row's 16384. -/
theorem block_term (c : Dev nD) (t : Fin cfg1.N) (p : Fin 256) (n : Fin 4096) (q : Fin 512) :
    gelu (hidden (fun k => iblk1 V c 0 t (ix2 p k)) (fun k => iblk1 V c 1 t (ix2 k q)) (iblk1 V c 2 t (ix2 0 q)))
        * iblk1 V c 3 t (ix2 q n)
      = ext (tm V c (rowOf t p) n) ((t.val % 32) * 512 + q.val) := by
  rw [ext_of_lt _ (by have := q.isLt; omega)]
  simp only [blk0, blk1, blk2, blk3]
  rfl

/-- The 512 terms of point t's hidden block, summed. -/
theorem block_sum (c : Dev nD) (t : Fin cfg1.N) (p : Fin 256) (n : Fin 4096) :
    ∑ q : Fin 512, gelu (hidden (fun k => iblk1 V c 0 t (ix2 p k)) (fun k => iblk1 V c 1 t (ix2 k q)) (iblk1 V c 2 t (ix2 0 q)))
        * iblk1 V c 3 t (ix2 q n)
      = ∑ q : Fin 512, ext (tm V c (rowOf t p) n) ((t.val % 32) * 512 + q.val) :=
  Finset.sum_congr rfl fun q _ => block_term V c t p n q

/-- After a point that is not the last of its row block, entry (p, n) of the resident block holds the first
    (t % 32 + 1) * 512 terms of its row and column. -/
theorem partial_sum (c : Dev nD) : ∀ (t : ℕ) (ht : t < cfg1.N), t % 32 ≠ 31 → ∀ (p : Fin 256) (n : Fin 4096),
    outsAt1 V c t ht (ix2 p n)
      = ∑ j ∈ Finset.range ((t % 32 + 1) * 512), ext (tm V c (rowOf ⟨t, ht⟩ p) n) j
  | 0, ht, _, p, n => by
    rw [outsAt1_A V c ⟨0, ht⟩ rfl (fun h => absurd h (by decide : ¬(0 % 32 = 31))), left_A, step_apply, reset_apply, zero_add,
      block_sum V c ⟨0, ht⟩ p n]
    exact (range_first_block _ 512).symm
  | t + 1, ht, h31, p, n => by
    have hN : t + 1 < 512 := lt_of_lt_of_eq ht (show cfg1.N = 512 from N_1)
    by_cases h0 : (t + 1) % 32 = 0
    · rw [outsAt1_A V c ⟨t + 1, ht⟩ h0 h31, left_A, step_apply, reset_apply, zero_add,
        block_sum V c ⟨t + 1, ht⟩ p n]
      dsimp only
      rw [h0]
      exact (range_first_block _ 512).symm
    · rw [outsAt1_B V c ⟨t + 1, ht⟩ h0 h31, left_B, step_apply, block_sum V c ⟨t + 1, ht⟩ p n]
      show outsAt1 V c t _ (ix2 p n) + _ = _
      rw [partial_sum c t (Nat.lt_of_succ_lt ht) (by omega) p n,
        show rowOf ⟨t, Nat.lt_of_succ_lt ht⟩ p = rowOf ⟨t + 1, ht⟩ p from Fin.ext (by show 256 * (t / 32) + p.val = 256 * ((t + 1) / 32) + p.val; omega),
        show t % 32 + 1 = (t + 1) % 32 from by omega]
      exact (range_succ_block _ _ 512).symm

/-- After the last point of a row block, entry (p, n) holds the whole entry of the result. -/
theorem closed_sum (c : Dev nD) (t : Fin cfg1.N) (h31 : t.val % 32 = 31) (p : Fin 256) (n : Fin 4096) :
    outsAt1 V c t.val t.isLt (ix2 p n)
      = ffnArr (V c main_v2) (V c main_v3) (V c main_v5) (V c main_v4) (V c main_v6) (ix2 (rowOf t p) n) := by
  have hN := lt_points t
  have h0 : ¬t.val % 32 = 0 := by omega
  rw [outsAt1_C V c t h0 h31, left_C, close_apply, step_apply, blk4, block_sum V c t p n]
  rw [partial_sum V c (t.val - 1) _ (by omega) p n,
    show rowOf ⟨t.val - 1, Nat.lt_of_le_of_lt (Nat.sub_le _ _) t.isLt⟩ p = rowOf t p from Fin.ext (by show 256 * ((t.val - 1) / 32) + p.val = 256 * (t.val / 32) + p.val; omega),
    show (t.val - 1) % 32 + 1 = t.val % 32 from by omega, ← range_succ_block, h31, ffnArr_apply]
  unfold ffnRow
  rw [sum_eq_range]
  rfl

/-! ## From the row blocks to the array -/

/-- What the last point of a row block writes back is that row block of the result. -/
theorem flushed_eq (c : Dev nD) (t : Fin cfg1.N) (hf : (cfg1.win 5).flush t = true) :
    (dat1 V c).flushed 5 t
      = ((cfg1.win 5).blk t).view.read (Elt Ideal) (ffnArr (V c main_v2) (V c main_v3) (V c main_v5) (V c main_v4) (V c main_v6)) := by
  have h31 : t.val % 32 = 31 := (flush1_5 t).mp hf
  obtain ⟨-, -, -, -, -, -, -, -, -, -, e0, e1⟩ := index_facts t
  show (cfg1.win 5).cut (grid1.coords t) ((dat1 V c).after 5 t) = _
  rw [after1_5]
  funext j
  obtain ⟨p, n, rfl⟩ : ∃ (p : Fin 256) (n : Fin 4096), j = ix2 p n := ⟨j 0, j 1, eq_ix2 j⟩
  rw [View.read_apply]
  show outsAt1 V c t.val t.isLt (ix2 p n)
    = ffnArr (V c main_v2) (V c main_v3) (V c main_v5) (V c main_v4) (V c main_v6) (((cfg1.win 5).blk t).view.emb (ix2 p n))
  rw [closed_sum V c t h31 p n]
  refine congrArg (ffnArr (V c main_v2) (V c main_v3) (V c main_v5) (V c main_v4) (V c main_v6)) (funext fun a => Fin.ext ?_)
  match a with
  | ⟨0, _⟩ => show 256 * (t.val / 32) + p.val = win1_5.index t (0 : Fin 2) * 256 + 1 * p.val; rw [e0]; omega
  | ⟨1, _⟩ => show n.val = win1_5.index t (1 : Fin 2) * 4096 + 1 * n.val; rw [e1]; omega

/-- An index of the array is in point t's output block iff each coordinate is in the block's range on its axis. -/
theorem mem_blk (t : Fin cfg1.N) (i : S4096x4096.Idx) :
    i ∈ ((cfg1.win 5).blk t).view.set
      ↔ ∀ a : Fin 2, win1_5.index t a * S256x4096.size a ≤ (i a).val
          ∧ (i a).val < win1_5.index t a * S256x4096.size a + S256x4096.size a := by
  show i ∈ ((View.whole main_v7).slice (win1_5.rect t)).set ↔ _
  rw [View.set_slice_whole, Rect.mem_set_unit]
  exact Iff.rfl

/-- Row r of the array is written back by the last point of row block r / 256. -/
theorem cover (i : S4096x4096.Idx) :
    ∃ t : Fin cfg1.N, (cfg1.win 5).flush t = true ∧ i ∈ ((cfg1.win 5).blk t).view.set := by
  have hi0 : (i 0).val < 4096 := (i 0).isLt
  have hi1 : (i 1).val < 4096 := (i 1).isLt
  have hN : cfg1.N = 512 := N_1
  obtain ⟨t, ht⟩ : ∃ t : Fin cfg1.N, t.val = 32 * ((i 0).val / 256) + 31 := ⟨⟨32 * ((i 0).val / 256) + 31, by rw [hN]; omega⟩, rfl⟩
  obtain ⟨-, -, -, -, -, -, -, -, -, -, e0, e1⟩ := index_facts t
  refine ⟨t, (flush1_5 t).mpr (by rw [ht]; omega), ?_⟩
  rw [mem_blk]
  intro a
  match a with
  | ⟨0, _⟩ =>
    show win1_5.index t (0 : Fin 2) * 256 ≤ (i 0).val ∧ (i 0).val < win1_5.index t (0 : Fin 2) * 256 + 256
    rw [e0, ht]; omega
  | ⟨1, _⟩ =>
    show win1_5.index t (1 : Fin 2) * 4096 ≤ (i 1).val ∧ (i 1).val < win1_5.index t (1 : Fin 2) * 4096 + 4096
    rw [e1]; omega

/-- The result array after the region: the two dense layers applied to every row of the normalised array found. -/
theorem ffn_final (c : Dev nD) :
    (dat1 V c).arrAt 5 cfg1.N = ffnArr (V c main_v2) (V c main_v3) (V c main_v5) (V c main_v4) (V c main_v6) :=
  (dat1 V c).arrAt_eq_of_cover 5 _ (fun t hf => flushed_eq V c t hf) cover

end Cert.LnFfn.Region1

end
-- ==== Proof.RefSpec.lean ====
/-
  The reference program computes the function of Spec.lean.

  The reference is a chain of whole-array operations.  Read at one index (r, n) of the result, each operation is an
  operation on the values of its operands at indices computed from (r, n): a broadcast of a 4096 x 1 column reads it
  at (r, 0), a broadcast of a vector as a 1 x n row reads entry n, a row sum reads the whole row r, and the two matrix
  products read row r of the left operand against one column of the right.  Followed from the result backwards this
  gives, in turn: the mean of row r, its variance, the normalised entry (r, c), the hidden unit (r, j) before and after
  the GELU, and the output entry: the terms of Spec.lean, in the order the program writes them.  The only arithmetic
  fact used is 0 + s = s, for the zero the two row sums start from.
-/
import proofs.«168557_j65077344469262_2_alg».proof.Proof.Gen.ReferenceIdeal.Read
import proofs.«168557_j65077344469262_2_alg».proof.Proof.Spec

noncomputable section

namespace Cert.LnFfn.Ref

open Cert.ReferenceIdeal Cert.ReferenceIdeal.Read Idealize.ShloMosaic Idealize.ShloMosaic.ValueIdx Cert.LnFfn

/-! ## Where each operation reads its operands -/

/-- Row sum: entry r of the sum reads row r of the array. -/
theorem i0 (r k : Fin 4096) : idx_main_v0 (ix1 r) k = ix2 r k :=
  funext fun a => Fin.ext (by match a with | ⟨0, _⟩ => rfl | ⟨1, _⟩ => rfl)
theorem i7 (r k : Fin 4096) : idx_main_v7 (ix1 r) k = ix2 r k :=
  funext fun a => Fin.ext (by match a with | ⟨0, _⟩ => rfl | ⟨1, _⟩ => rfl)
/-- A vector laid as a 4096 x 1 column: entry (r, 0) reads entry r. -/
theorem i1 (r : Fin 4096) (z : Fin 1) : idx_main_v1 (ix2 r z) = ix1 r :=
  funext fun a => Fin.ext (by match a with | ⟨0, _⟩ => rfl)
theorem i8 (r : Fin 4096) (z : Fin 1) : idx_main_v8 (ix2 r z) = ix1 r :=
  funext fun a => Fin.ext (by match a with | ⟨0, _⟩ => rfl)
/-- A 4096 x 1 column spread over the columns: entry (r, c) reads entry (r, 0). -/
theorem i4 (r c : Fin 4096) : idx_main_v4 (ix2 r c) = ix2 r (0 : Fin 1) :=
  funext fun a => Fin.ext (by match a with | ⟨0, _⟩ => rfl | ⟨1, _⟩ => rfl)
theorem i14 (r c : Fin 4096) : idx_main_v14 (ix2 r c) = ix2 r (0 : Fin 1) :=
  funext fun a => Fin.ext (by match a with | ⟨0, _⟩ => rfl | ⟨1, _⟩ => rfl)
theorem i16 (r c : Fin 4096) : idx_main_v16 (ix2 r c) = ix2 r (0 : Fin 1) :=
  funext fun a => Fin.ext (by match a with | ⟨0, _⟩ => rfl | ⟨1, _⟩ => rfl)
/-- A vector laid as a 1 x n row: entry (0, c) reads entry c. -/
theorem i18 (z : Fin 1) (c : Fin 4096) : idx_main_v18 (ix2 z c) = ix1 c :=
  funext fun a => Fin.ext (by match a with | ⟨0, _⟩ => rfl)
theorem i21 (z : Fin 1) (c : Fin 4096) : idx_main_v21 (ix2 z c) = ix1 c :=
  funext fun a => Fin.ext (by match a with | ⟨0, _⟩ => rfl)
theorem i25 (z : Fin 1) (j : Fin 16384) : idx_main_v25 (ix2 z j) = ix1 j :=
  funext fun a => Fin.ext (by match a with | ⟨0, _⟩ => rfl)
theorem i42 (z : Fin 1) (n : Fin 4096) : idx_main_v42 (ix2 z n) = ix1 n :=
  funext fun a => Fin.ext (by match a with | ⟨0, _⟩ => rfl)
/-- A 1 x n row spread over the rows: entry (r, c) reads entry (0, c). -/
theorem i19 (r c : Fin 4096) : idx_main_v19 (ix2 r c) = ix2 (0 : Fin 1) c :=
  funext fun a => Fin.ext (by match a with | ⟨0, _⟩ => rfl | ⟨1, _⟩ => rfl)
theorem i22 (r c : Fin 4096) : idx_main_v22 (ix2 r c) = ix2 (0 : Fin 1) c :=
  funext fun a => Fin.ext (by match a with | ⟨0, _⟩ => rfl | ⟨1, _⟩ => rfl)
theorem i26 (r : Fin 4096) (j : Fin 16384) : idx_main_v26 (ix2 r j) = ix2 (0 : Fin 1) j :=
  funext fun a => Fin.ext (by match a with | ⟨0, _⟩ => rfl | ⟨1, _⟩ => rfl)
theorem i43 (r n : Fin 4096) : idx_main_v43 (ix2 r n) = ix2 (0 : Fin 1) n :=
  funext fun a => Fin.ext (by match a with | ⟨0, _⟩ => rfl | ⟨1, _⟩ => rfl)
/-- Matrix product: entry (r, j) reads row r of the left operand and column j of the right. -/
theorem l24 (r : Fin 4096) (j : Fin 16384) (k : Fin 4096) : lidx_main_v24 (ix2 r j) k = ix2 r k :=
  funext fun a => Fin.ext (by match a with | ⟨0, _⟩ => rfl | ⟨1, _⟩ => rfl)
theorem r24 (r : Fin 4096) (j : Fin 16384) (k : Fin 4096) : ridx_main_v24 (ix2 r j) k = ix2 k j :=
  funext fun a => Fin.ext (by match a with | ⟨0, _⟩ => rfl | ⟨1, _⟩ => rfl)
theorem l41 (r n : Fin 4096) (k : Fin 16384) : lidx_main_v41 (ix2 r n) k = ix2 r k :=
  funext fun a => Fin.ext (by match a with | ⟨0, _⟩ => rfl | ⟨1, _⟩ => rfl)
theorem r41 (r n : Fin 4096) (k : Fin 16384) : ridx_main_v41 (ix2 r n) k = ix2 k n :=
  funext fun a => Fin.ext (by match a with | ⟨0, _⟩ => rfl | ⟨1, _⟩ => rfl)

/-! ## The stages, read at an index -/

variable (x0 : (⟨S4096x4096, .f32⟩ : BufTy).Contents (Elt Ideal))
  (x1 x2 : (⟨S4096, .f32⟩ : BufTy).Contents (Elt Ideal))
  (x3 : (⟨S4096x16384, .f32⟩ : BufTy).Contents (Elt Ideal))
  (x4 : (⟨S16384, .f32⟩ : BufTy).Contents (Elt Ideal))
  (x5 : (⟨S16384x4096, .f32⟩ : BufTy).Contents (Elt Ideal))
  (x6 : (⟨S4096, .f32⟩ : BufTy).Contents (Elt Ideal))

/-- The column of means: entry (r, 0) is the mean of row r. -/
theorem mean_at (r : Fin 4096) (z : Fin 1) :
    val_main_v3 (F := Ideal) x0 (ix2 r z) = rowMean (fun k => x0 (ix2 r k)) := by
  rw [val_main_v3_apply, val_main_v1_apply, i1, val_main_v0_apply, val_main_v2_apply, val_main_cst_0_apply,
    val_main_cst_apply]
  simp only [Ideal.hostDivf_def, Ideal.ofBits_def, Ideal.ofBits_zero_f32, zero_add, i0]
  rfl

/-- The deviations from the mean: entry (r, c) is x (r, c) minus the mean of row r (first copy). -/
theorem dev_at (r c : Fin 4096) :
    val_main_v5 (F := Ideal) x0 (ix2 r c) = x0 (ix2 r c) - rowMean (fun k => x0 (ix2 r k)) := by
  rw [val_main_v5_apply, val_main_v4_apply, i4, mean_at, Ideal.subf_def]

/-- The deviations from the mean, second copy. -/
theorem dev_at' (r c : Fin 4096) :
    val_main_v15 (F := Ideal) x0 (ix2 r c) = x0 (ix2 r c) - rowMean (fun k => x0 (ix2 r k)) := by
  rw [val_main_v15_apply, val_main_v14_apply, i14, mean_at, Ideal.subf_def]

/-- The column of variances: entry (r, 0) is the variance of row r. -/
theorem var_at (r : Fin 4096) (z : Fin 1) :
    val_main_v10 (F := Ideal) x0 (ix2 r z) = rowVar (fun k => x0 (ix2 r k)) := by
  rw [val_main_v10_apply, val_main_v8_apply, i8, val_main_v7_apply, val_main_v9_apply, val_main_cst_2_apply,
    val_main_cst_1_apply]
  simp only [Ideal.hostDivf_def, Ideal.ofBits_def, Ideal.ofBits_zero_f32, zero_add, i7]
  unfold rowVar
  refine congrArg (fun s => Ideal.div s _) (Finset.sum_congr rfl fun k _ => ?_)
  rw [val_main_v6_apply, dev_at, Ideal.mulf_def]

/-- The column of inverse standard deviations: entry (r, 0) is rsqrt (variance of row r + eps). -/
theorem rstd_at (r : Fin 4096) (z : Fin 1) :
    val_main_v13 (F := Ideal) x0 (ix2 r z)
      = Ideal.rsqrt (rowVar (fun k => x0 (ix2 r k)) + Ideal.ofBits .f32 0x3A83126F#32) := by
  rw [val_main_v13_apply, val_main_v12_apply, var_at, val_main_v11_apply, val_main_cst_3_apply]
  simp only [Ideal.hostUnary_rsqrt_def, Ideal.addf_def, Ideal.ofBits_def]

/-- The normalised array: entry (r, c) is entry c of the normalised row r. -/
theorem ln_at (r c : Fin 4096) :
    val_main_v23 (F := Ideal) x0 x1 x2 (ix2 r c)
      = lnRow (fun k => x0 (ix2 r k)) (fun k => x1 (ix1 k)) (fun k => x2 (ix1 k)) c := by
  rw [val_main_v23_apply, val_main_v20_apply, val_main_v17_apply, dev_at', val_main_v16_apply, i16, rstd_at,
    val_main_v19_apply, i19, val_main_v18_apply, i18, val_main_v22_apply, i22, val_main_v21_apply, i21]
  simp only [Ideal.addf_def, Ideal.mulf_def]
  rfl

/-- The hidden units before the GELU: entry (r, j) is hidden unit j of the normalised row r. -/
theorem hidden_at (r : Fin 4096) (j : Fin 16384) :
    val_main_v27 (F := Ideal) x0 x1 x2 x3 x4 (ix2 r j)
      = hidden (lnRow (fun k => x0 (ix2 r k)) (fun k => x1 (ix1 k)) (fun k => x2 (ix1 k)))
          (fun c => x3 (ix2 c j)) (x4 (ix1 j)) := by
  rw [val_main_v27_apply, val_main_v24_apply, val_main_v26_apply, i26, val_main_v25_apply, i25, Ideal.addf_def]
  unfold hidden
  refine congrArg (fun s => s + _) (Finset.sum_congr rfl fun k _ => ?_)
  rw [l24, r24, ln_at]

/-- The hidden units after the GELU. -/
theorem gelu_at (r : Fin 4096) (j : Fin 16384) :
    val_main_v40 (F := Ideal) x0 x1 x2 x3 x4 (ix2 r j)
      = gelu (hidden (lnRow (fun k => x0 (ix2 r k)) (fun k => x1 (ix1 k)) (fun k => x2 (ix1 k)))
          (fun c => x3 (ix2 c j)) (x4 (ix1 j))) := by
  rw [val_main_v40_apply, val_main_v29_apply, val_main_v39_apply, val_main_v37_apply, val_main_v36_apply,
    val_main_v34_apply, val_main_v33_apply, val_main_v32_apply, val_main_v31_apply, hidden_at,
    val_main_v28_apply, val_main_v30_apply, val_main_v35_apply, val_main_v38_apply,
    val_main_cst_4_apply, val_main_cst_5_apply, val_main_cst_6_apply, val_main_cst_7_apply]
  simp only [Ideal.addf_def, Ideal.mulf_def, Ideal.hostUnary_tanh_def, Ideal.ofBits_def]
  rfl

/-- The reference computes the function of Spec.lean. -/
theorem ref_eq :
    val_main_v44 (F := Ideal) x0 x1 x2 x3 x4 x5 x6 = wholeArr x0 x1 x2 x3 x4 x5 x6 := by
  funext i
  obtain ⟨r, n, rfl⟩ : ∃ (r n : Fin 4096), i = ix2 r n := ⟨i 0, i 1, eq_ix2 i⟩
  rw [wholeArr_apply, val_main_v44_apply, val_main_v41_apply, val_main_v43_apply, i43, val_main_v42_apply, i42,
    Ideal.addf_def]
  unfold ffnRow term
  simp only [l41, r41, gelu_at]

end Cert.LnFfn.Ref

end
-- ==== Proof.Whole.lean ====
/-
  The two programs' results as the one function of the seven arguments.

  The kernel: its result array is what the feed-forward region leaves, the two dense layers applied to the array the
  normalisation region left; that region's operands are the input as launched and the scale and shift vectors re-laid
  as single rows, the feed-forward region's are the weight matrices narrowed to sixteen bits (no change on the
  extended reals) and the bias vectors re-laid as single rows.  A vector re-laid as one row reads at (0, k) what the
  vector reads at k, so the composition is the whole function of the arguments.

  The reference: its last operation's value, read one operation at a time, is the same function.
-/
import proofs.«168557_j65077344469262_2_alg».proof.Proof.Spec
import proofs.«168557_j65077344469262_2_alg».proof.Proof.RunBoth
import proofs.«168557_j65077344469262_2_alg».proof.Proof.LnArray
import proofs.«168557_j65077344469262_2_alg».proof.Proof.FfnArray
import proofs.«168557_j65077344469262_2_alg».proof.Proof.RefSpec

noncomputable section

namespace Cert.LnFfn.Whole

open Idealize.ShloMosaic Idealize.ShloMosaic.TcCoe Idealize.ShloMosaic.ValueIdx Idealize.SL.Sem

section Kernel

open Cert.KernelIdeal Cert.KernelIdeal.Gen Cert.LnFfn Cert.LnFfn.Run

/-- What the kernel's result buffer holds after the run, as the whole function of the launch contents of the arguments. -/
theorem kernel_value (m : (ℓ : Loc nD τ sig) → Buf (Elt Ideal) ℓ) (ρ : Dev nD → PrngReg) (c : Dev nD) :
    W4 m ρ c (Proc.devRef .tc main_v7)
      = wholeArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  refine (result_eq m ρ c).trans ((Cert.LnFfn.Region1.ffn_final (V3 m ρ) c).trans ?_)
  rw [V3_v2, Cert.LnFfn.Region0.ln_final (V1 m ρ) c, V1_arg0, V1_v0, V1_v1, V3_v3, V3_v4, V3_v5, V3_v6]
  rw [narrow_eq, narrow_eq]
  exact ffnArr_lnArr _ _ _ _ _ _ _ _ _ _ _ (fun k => row4096_at _ k) (fun k => row4096_at _ k)
    (fun j => row16384_at _ j) (fun n => row4096_at _ n)

end Kernel

section Reference

open Cert.ReferenceIdeal Cert.LnFfn

/-- What the reference's result buffer holds after its run, as the whole function of the launch contents of the arguments. -/
theorem reference_value (m : (ℓ : Loc nD τ sig) → Buf (Elt Ideal) ℓ) (c : Dev nD) :
    Cert.ReferenceIdeal.Value.res_main_v44 m c
      = wholeArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (Cert.ReferenceIdeal.Read.val_main_v44_eq m c).trans (Cert.LnFfn.Ref.ref_eq _ _ _ _ _ _ _)

end Reference

end Cert.LnFfn.Whole

end
-- ==== Proof.lean ====
/-
  LayerNorm followed by a fused two-layer feed-forward network (tanh GELU), as a tiled kernel, against the plain
  array program: on the extended reals the two compute one function of their seven arguments.

  Per row of the 4096 × 4096 input: the mean is the sum over 4096 divided by 4096, the variance the sum of the squared
  deviations divided by 4096, the normalised entry (x - mean) * rsqrt (variance + eps) * gamma + beta; hidden unit j is
  the normalised row against column j of the first weight matrix plus its bias, through the GELU; output n is the sum
  over the 16384 hidden units of that times the second weight matrix's entry (j, n), plus the output bias.  Both
  programs write each entry with the same operations in the same order and the same float constants, so nothing about
  those constants is used.  The kernel differs only in how it is cut up: the normalisation is done on 8 blocks of 512
  rows, and the sum over the 16384 hidden units is accumulated from zero in 32 blocks of 512 into a block that stays
  resident, the output bias added after the last.  Addition of extended reals is associative and commutative with
  zero as its unit, so the sum taken in 32 consecutive blocks from zero is the one sum: no finiteness of the inputs is
  needed, and the precondition is never opened.  Narrowing to sixteen bits is the identity on the extended reals.

  The three frames: each kernel program's is its run as two pipelined regions among host operations; the reference's
  is its straight-line run with the result dropped.  The idealisation rewrote nothing, so it is preserved trivially.
-/
import proofs.«168557_j65077344469262_2_alg».proof.Defs
import proofs.«168557_j65077344469262_2_alg».proof.Proof.Gen.Kernel
import proofs.«168557_j65077344469262_2_alg».proof.Proof.Gen.Kernel.Skeleton
import proofs.«168557_j65077344469262_2_alg».proof.Proof.Gen.Kernel.Launch
import proofs.«168557_j65077344469262_2_alg».proof.Proof.Gen.Kernel.Points
import proofs.«168557_j65077344469262_2_alg».proof.Proof.Gen.Kernel.Frame
import proofs.«168557_j65077344469262_2_alg».proof.Proof.Gen.KernelIdeal
import proofs.«168557_j65077344469262_2_alg».proof.Proof.Gen.KernelIdeal.Skeleton
import proofs.«168557_j65077344469262_2_alg».proof.Proof.Gen.KernelIdeal.Launch
import proofs.«168557_j65077344469262_2_alg».proof.Proof.Gen.KernelIdeal.Points
import proofs.«168557_j65077344469262_2_alg».proof.Proof.Gen.KernelIdeal.Frame
import proofs.«168557_j65077344469262_2_alg».proof.Proof.Gen.ReferenceIdeal
import proofs.«168557_j65077344469262_2_alg».proof.Proof.Gen.Pre_finite_inputs
import proofs.«168557_j65077344469262_2_alg».proof.Proof.Gen.ReferenceIdeal.Run
import proofs.«168557_j65077344469262_2_alg».proof.Proof.Gen.ReferenceIdeal.Read
import proofs.«168557_j65077344469262_2_alg».proof.Proof.Whole
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its straight-line run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the whole function of those arguments in
    their result buffers. -/
theorem algebraic : Cert.algebraic_KernelIdeal_ReferenceIdeal := by
  intro m ρ m' ρ' _ hagree
  refine ⟨fun c => Cert.LnFfn.wholeArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.LnFfn.Whole.kernel_value m ρ c), (h c).2⟩)
      (Cert.LnFfn.Run.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.LnFfn.Whole.reference_value m' c, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
